-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S4096x1 : Shape := ⟨2, ![4096, 1]⟩
abbrev S1x4096 : Shape := ⟨2, ![1, 4096]⟩
abbrev S512x4096 : Shape := ⟨2, ![512, 4096]⟩
abbrev S1024x4096 : Shape := ⟨2, ![1024, 4096]⟩
abbrev S512x1 : Shape := ⟨2, ![512, 1]⟩
abbrev S1x1024 : Shape := ⟨2, ![1, 1024]⟩
abbrev S1024 : Shape := ⟨1, ![1024]⟩
abbrev S512x1024 : Shape := ⟨2, ![512, 1024]⟩

abbrev nBuf : Space → Nat
  | .hbm => 11
  | .vmem => 24
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S8192x1, .f32⟩
  | .hbm, ⟨6, _⟩ => ⟨S4096x4096, .bf16⟩
  | .hbm, ⟨7, _⟩ => ⟨S4096x1, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S256x1, .f32⟩
  | .local _ .vmem, ⟨11, _⟩ => ⟨S256x1, .f32⟩
  | .local _ .vmem, ⟨12, _⟩ => ⟨S512x4096, .bf16⟩
  | .local _ .vmem, ⟨13, _⟩ => ⟨S512x4096, .bf16⟩
  | .local _ .vmem, ⟨14, _⟩ => ⟨S1024x4096, .bf16⟩
  | .local _ .vmem, ⟨15, _⟩ => ⟨S1024x4096, .bf16⟩
  | .local _ .vmem, ⟨16, _⟩ => ⟨S512x1, .f32⟩
  | .local _ .vmem, ⟨17, _⟩ => ⟨S512x1, .f32⟩
  | .local _ .vmem, ⟨18, _⟩ => ⟨S1x1024, .f32⟩
  | .local _ .vmem, ⟨19, _⟩ => ⟨S1x1024, .f32⟩
  | .local _ .vmem, ⟨20, _⟩ => ⟨S1024, .f32⟩
  | .local _ .vmem, ⟨21, _⟩ => ⟨S1024, .f32⟩
  | .local _ .vmem, ⟨22, _⟩ => ⟨S512x1024, .f32⟩
  | .local _ .vmem, ⟨23, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S4096x1_S1x4096 : S4096x1.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S4096.size a
  hwx2_4 : ∀ i : grid2.Coords, EltTy.bits .f32 = 32 ∨ (Rect.block (s := S4096) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1024.size a ≤ S8192x4096.size a
  hwx2_5 : ∀ i : grid2.Coords, EltTy.bits .f32 = 32 ∨ (Rect.block (s := S8192x4096) S512x1024.size (cc2_transform_5 i) (hinb2_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S256x4096.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1_0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_1) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4) S512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S4096x1 : Shape := ⟨2, ![4096, 1]⟩
abbrev S1x1x4096 : Shape := ⟨3, ![1, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4x2048x4096, .f32⟩
  | .hbm, ⟨50, _⟩ => ⟨S1x1x4096, .f32⟩
  | .hbm, ⟨51, _⟩ => ⟨S4x2048x4096, .f32⟩
  | .hbm, ⟨52, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.RunKit.lean ====
/-
  The idealized kernel's run with its result buffer read.

  @main is six segments: a reshape, two quantize regions, a reshape, the matmul region, a reshape. Every weakly fair
  execution runs them in order; each segment leaves every unscoped buffer at the next boundary's contents, and the last
  boundary's contents `W6` are read against the final memory. So the result buffer ends at `W6` of its reference, and
  the three argument arrays end as launched.
-/
import proofs.«101874_j37950331027660_2_alg».proof.Proof.Gen.KernelIdeal.Frame

set_option maxRecDepth 16384

noncomputable section

namespace Cert.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KerValue

end
-- ==== Proof.Spec.lean ====
/-
  The quantized linear layer, stated once over the extended reals.

  A row `f` of a matrix is quantized against its own scale: `rowAbsMax f` is the largest absolute value in the row, floored
  at a small positive constant; an entry `x` of that row becomes the integer code `code a x`, the product `x · (127 / a)`
  rounded to the nearest integer (ties to even) and clamped to `[-127, 127]`; `unscale a = a / 127` turns a code back into
  the value it stands for.

  The two programs differ in where the scales sit. One contracts the raw codes of a row of `x` against the raw codes of a
  row of `w` and multiplies the sum by the two rows' `unscale` factors (`kerAt`); the other divides every code by
  `127 / a` first and contracts the quotients (`refAt`). Both then add the bias entry of the output column.
-/
import Idealize.ShloMosaic.PureOps.Ideal.Laws
import Idealize.ShloMosaic.Lib.ValueIdx

noncomputable section

namespace Cert.Spec

open Idealize.ShloMosaic Idealize.ShloMosaic.ValueIdx
open scoped BigOperators

/-- The f32 word of `-∞`, the value a row maximum starts from. -/
abbrev wNegInf : EReal := Ideal.ofBits .f32 0xFF800000#32
/-- The f32 word nearest `1e-8`, the floor of a row's scale. -/
abbrev wEps : EReal := Ideal.ofBits .f32 0x322BCC77#32
/-- The f32 word of `127`. -/
abbrev w127 : EReal := Ideal.ofBits .f32 0x42FE0000#32
/-- The f32 word of `-127`. -/
abbrev wm127 : EReal := Ideal.ofBits .f32 0xC2FE0000#32

/-- The largest absolute value `max x (-x)` over a row, taken from `-∞`, then floored at the small constant. -/
def rowAbsMax {K : ℕ} (f : Fin K → EReal) : EReal :=
  max ((Finset.univ : Finset (Fin K)).fold max wNegInf (fun k => max (f k) (-(f k)))) wEps

/-- Rounding to the nearest integer, ties to even; the infinities are fixed. -/
def rnd (x : EReal) : EReal := Ideal.liftRound Ideal.roundHalfEven x

/-- The integer code of an entry `x` of a row whose scale is `a`. -/
def code (a x : EReal) : EReal := min w127 (max wm127 (rnd (x * Ideal.div w127 a)))

/-- The factor that turns a code of a row of scale `a` back into a value. -/
def unscale (a : EReal) : EReal := Ideal.div a w127

/-- The scale of row `(a, s)` of a `[B, S, K]` array. -/
def scale3 {B S K : ℕ} (x : (⟨3, ![B, S, K]⟩ : Shape).Idx → EReal) (a : Fin B) (s : Fin S) : EReal :=
  rowAbsMax fun k : Fin K => x (ix3 a s k)

/-- The scale of row `o` of an `[N, K]` matrix. -/
def scale2 {N K : ℕ} (w : (⟨2, ![N, K]⟩ : Shape).Idx → EReal) (o : Fin N) : EReal :=
  rowAbsMax fun k : Fin K => w (ix2 o k)

/-- Codes contracted first, the two scales applied to the sum, then the bias. -/
def kerAt {B S K N : ℕ} (x : (⟨3, ![B, S, K]⟩ : Shape).Idx → EReal) (w : (⟨2, ![N, K]⟩ : Shape).Idx → EReal)
    (b : (⟨1, ![N]⟩ : Shape).Idx → EReal) (a : Fin B) (s : Fin S) (o : Fin N) : EReal :=
  (∑ k : Fin K, code (scale3 x a s) (x (ix3 a s k)) * code (scale2 w o) (w (ix2 o k)))
    * (unscale (scale3 x a s) * unscale (scale2 w o)) + b (ix1 o)

/-- Every code divided by its row's `127 / scale` first, the quotients contracted, then the bias. -/
def refAt {B S K N : ℕ} (x : (⟨3, ![B, S, K]⟩ : Shape).Idx → EReal) (w : (⟨2, ![N, K]⟩ : Shape).Idx → EReal)
    (b : (⟨1, ![N]⟩ : Shape).Idx → EReal) (a : Fin B) (s : Fin S) (o : Fin N) : EReal :=
  (∑ k : Fin K, Ideal.div (code (scale3 x a s) (x (ix3 a s k))) (Ideal.div w127 (scale3 x a s))
      * Ideal.div (code (scale2 w o) (w (ix2 o k))) (Ideal.div w127 (scale2 w o))) + b (ix1 o)

end Cert.Spec

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.PayQuant.lean ====
/-
  The two row-quantize bodies, read at an index on the extended reals.

  Each body loads a block of 256 rows of 4096 entries. Its scale column holds, at row `p`, the largest absolute value of
  that row floored at the small constant (`rowAbsMax`); the block of codes holds, at `(p, q)`, the entry times `127 / scale`,
  rounded to even and clamped to `[-127, 127]` (`code`); the factor column holds `scale / 127` (`unscale`). The change of
  format on the way out is the identity on the extended reals.
-/
import proofs.«101874_j37950331027660_2_alg».proof.Proof.Gen.KernelIdeal.Skeleton
import proofs.«101874_j37950331027660_2_alg».proof.Proof.Spec
import proofs.«101874_j37950331027660_2_alg».proof.Proof.LibColumn
import proofs.«101874_j37950331027660_2_alg».proof.Proof.LibRowMax
import Idealize.ShloMosaic.PureOps.Ideal.Laws
import Idealize.ShloMosaic.Lib.Pipeline.Value
import Idealize.ShloMosaic.Lib.ValueIdx

noncomputable section

namespace Cert.KerValue

open Cert.KernelIdeal Cert.KernelIdeal.Gen Cert.KernelIdeal.Facts₀ Idealize.ShloMosaic Idealize.ShloMosaic.ValueIdx Cert.Spec

variable [Cert.KernelIdeal.Facts]

/-- Rounding to even applied entry by entry, read at an index. -/
theorem roundeven_at {s : Shape} {φ : FTy} (v : FVec Ideal s φ) (i : s.Idx) :
    roundeven v i = Ideal.liftRound Ideal.roundHalfEven (v i) := rfl

/-- The absolute value applied entry by entry, read at an index. -/
theorem absf_at {s : Shape} {φ : FTy} (v : FVec Ideal s φ) (i : s.Idx) : absf v i = max (v i) (-(v i)) := rfl

/-- The row maximum as the bodies print it, at row `p`: the fold of `max` from `-∞` over the row. -/
theorem rowMax_apply (v : FVec Ideal S256x4096 .f32) (p : Fin 256) :
    multiReduction .maximumf [1] S256 v 0xFF800000#32 Gen.reduces_S256x4096_S256 (.inl rfl) rfl (ix1 p)
      = (Finset.univ : Finset (Fin 4096)).fold max wNegInf (fun k => v (ix2 p k)) :=
  Cert.Lib.multiReduction_maximumf_rows v _ _ _ _ p

/-! ## The first pass (rows of `x`) -/

/-- The scale column of a block of 256 rows: at `(p, 0)` the floored absolute maximum of row `p`. -/
theorem scale0_apply (x0 : Vec Ideal S256x4096 .f32) (p : Fin 256) (u : Fin 1) :
    k0_pay2 (F := Ideal) x0 (ix2 p u) = rowAbsMax (fun k : Fin 4096 => x0 (ix2 p k)) := by
  unfold k0_pay2 k0_pay1
  dsimp only
  unfold rowAbsMax
  rw [maximumf_apply, broadcast_apply]
  rw [Cert.Lib.shapeCast_a_a1_apply]
  rw [rowMax_apply]
  rw [shapeCast_self]
  simp only [absf_at, Ideal.ofBits_def]

/-- The codes of the block: entry `(p, q)` against the scale of row `p`. -/
theorem codes0_apply (x0 : Vec Ideal S256x4096 .f32) (p : Fin 256) (q : Fin 4096) :
    k0_pay3 (F := Ideal) x0 (ix2 p q) = code (rowAbsMax fun k : Fin 4096 => x0 (ix2 p k)) (x0 (ix2 p q)) := by
  unfold k0_pay3
  rw [truncf_apply, minimumf_apply, broadcast_apply, maximumf_apply, broadcast_apply, roundeven_at, mulf_apply,
    Cert.Lib.broadcastTo_a1_ab_apply, divf_apply, broadcast_apply, scale0_apply]
  unfold k0_pay1
  rw [shapeCast_self]
  unfold code rnd
  simp only [Ideal.ofBits_def]

/-- The factor column of the block: at `(p, 0)` the scale of row `p` over 127. -/
theorem unscale0_apply (x0 : Vec Ideal S256x4096 .f32) (p : Fin 256) (u : Fin 1) :
    k0_pay4 (F := Ideal) x0 (ix2 p u) = unscale (rowAbsMax fun k : Fin 4096 => x0 (ix2 p k)) := by
  unfold k0_pay4
  rw [divf_apply, broadcast_apply, scale0_apply]
  unfold unscale
  simp only [Ideal.ofBits_def]

/-! ## The second pass (rows of `w`): the same body without the identity cast -/

/-- The scale column of a block of 256 rows: at `(p, 0)` the floored absolute maximum of row `p`. -/
theorem scale1_apply (x0 : Vec Ideal S256x4096 .f32) (p : Fin 256) (u : Fin 1) :
    k1_pay1 (F := Ideal) x0 (ix2 p u) = rowAbsMax (fun k : Fin 4096 => x0 (ix2 p k)) := by
  unfold k1_pay1
  unfold rowAbsMax
  rw [maximumf_apply, broadcast_apply]
  rw [Cert.Lib.shapeCast_a_a1_apply]
  rw [rowMax_apply]
  simp only [absf_at, Ideal.ofBits_def]

/-- The codes of the block: entry `(p, q)` against the scale of row `p`. -/
theorem codes1_apply (x0 : Vec Ideal S256x4096 .f32) (p : Fin 256) (q : Fin 4096) :
    k1_pay2 (F := Ideal) x0 (ix2 p q) = code (rowAbsMax fun k : Fin 4096 => x0 (ix2 p k)) (x0 (ix2 p q)) := by
  unfold k1_pay2
  rw [truncf_apply, minimumf_apply, broadcast_apply, maximumf_apply, broadcast_apply, roundeven_at, mulf_apply,
    Cert.Lib.broadcastTo_a1_ab_apply, divf_apply, broadcast_apply, scale1_apply]
  unfold code rnd
  simp only [Ideal.ofBits_def]

/-- The factor column of the block: at `(p, 0)` the scale of row `p` over 127. -/
theorem unscale1_apply (x0 : Vec Ideal S256x4096 .f32) (p : Fin 256) (u : Fin 1) :
    k1_pay3 (F := Ideal) x0 (ix2 p u) = unscale (rowAbsMax fun k : Fin 4096 => x0 (ix2 p k)) := by
  unfold k1_pay3
  rw [divf_apply, broadcast_apply, scale1_apply]
  unfold unscale
  simp only [Ideal.ofBits_def]

end Cert.KerValue

end
-- ==== Proof.KerSpec.lean ====
/-
  What each of the kernel's three passes leaves in its output arrays, as whole-array functions on the extended reals.

  The first two passes quantize a matrix row by row: `codesArr X` holds, at `(r, k)`, the integer code of `X (r, k)` against
  the scale of row `r`, and `unscaleArr X`, a column, holds at `(r, 0)` the factor that turns row `r`'s codes back into values.
  The third pass contracts two code matrices row against row, multiplies the sum at `(r, n)` by the left column's entry `r`
  and the right row vector's entry `n`, and adds the bias entry `n` (`scaledRowsDot`).
-/
import proofs.«101874_j37950331027660_2_alg».proof.Proof.Spec

noncomputable section

namespace Cert.Spec

open Idealize.ShloMosaic Idealize.ShloMosaic.ValueIdx
open scoped BigOperators

/-- The codes of an `[R, K]` matrix, each row against its own scale. -/
def codesArr {R K : ℕ} (X : (⟨2, ![R, K]⟩ : Shape).Idx → EReal) : (⟨2, ![R, K]⟩ : Shape).Idx → EReal :=
  fun i => code (scale2 X (i 0)) (X i)

/-- The column of per-row factors `scale / 127` of an `[R, K]` matrix. -/
def unscaleArr {R K : ℕ} (X : (⟨2, ![R, K]⟩ : Shape).Idx → EReal) : (⟨2, ![R, 1]⟩ : Shape).Idx → EReal :=
  fun i => unscale (scale2 X (i 0))

/-- Rows of `Q` against rows of `Wq`, the sum at `(r, n)` scaled by `sx (r, 0) · sw (0, n)`, plus `b n`. -/
def scaledRowsDot {M N K : ℕ} (Q : (⟨2, ![M, K]⟩ : Shape).Idx → EReal) (Wq : (⟨2, ![N, K]⟩ : Shape).Idx → EReal)
    (sx : (⟨2, ![M, 1]⟩ : Shape).Idx → EReal) (sw : (⟨2, ![1, N]⟩ : Shape).Idx → EReal)
    (b : (⟨1, ![N]⟩ : Shape).Idx → EReal) : (⟨2, ![M, N]⟩ : Shape).Idx → EReal :=
  fun i => (∑ k : Fin K, Q (ix2 (i 0) k) * Wq (ix2 (i 1) k)) * (sx (ix2 (i 0) (0 : Fin 1)) * sw (ix2 (0 : Fin 1) (i 1)))
    + b (ix1 (i 1))

end Cert.Spec

end
-- ==== Proof.Arr0.lean ====
/-
  The first row-quantize pass as whole-array functions.

  The pass walks the [8192, 4096] input array in blocks of 256 whole rows; at point `t` it reads rows `256 t … 256 t + 255`, and writes the
  same rows of the codes' array and of the one-column array of factors. A code, and a factor, depends on its own row only,
  and the block holds that row whole: so what point `t` writes is block `t` of `codesArr` (of `unscaleArr`) of the input
  array. Row `r` lies in the block of point `r / 256`, so the blocks cover both output arrays, and each array ends holding
  that one function of the input array.
-/
import proofs.«101874_j37950331027660_2_alg».proof.Proof.Gen.KernelIdeal.Frame
import proofs.«101874_j37950331027660_2_alg».proof.Proof.PayQuant
import proofs.«101874_j37950331027660_2_alg».proof.Proof.KerSpec
import Idealize.ShloMosaic.Lib.Pipeline.Value

noncomputable section

namespace Cert.KerValue

open Cert.KernelIdeal Cert.KernelIdeal.Gen Idealize.ShloMosaic Idealize.ShloMosaic.ValueIdx Cert.Spec
open Idealize.ShloMosaic.TcCoe
open Idealize.ShloMosaic.Pipeline (Dat)

/-- The offsets of a whole-buffer access are zero. -/
theorem zero_offsets0 : (![0, 0] : Fin 2 → Nat) = fun _ => 0 := funext fun a => by fin_cases a <;> rfl

/-- The printed index maps, decided over the grid: at point `t` each of the three windows is at block `(t, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable [Cert.KernelIdeal.Facts]
variable (V : (c : Dev nD) → (b : Ref sig .tc) → Buf (Elt Ideal) ((c : Thread nD τ).loc b))

/-- The codes of a block of 256 rows whose rows are rows `r p` of a matrix `X` are the codes of `X` on those rows:
    a code depends on its own row only. -/
theorem codes_block0 (x0 : Vec Ideal S256x4096 .f32) (X : S8192x4096.Idx → EReal) (r : Fin 256 → Fin 8192)
    (hx : ∀ p k, x0 (ix2 p k) = X (ix2 (r p) k)) (p : Fin 256) (q : Fin 4096) :
    k0_pay3 (F := Ideal) x0 (ix2 p q) = codesArr X (ix2 (r p) q) := by
  rw [codes0_apply]
  simp only [hx]
  rfl

/-- The factors of such a block are the factors of `X` on those rows. -/
theorem unscale_block0 (x0 : Vec Ideal S256x4096 .f32) (X : S8192x4096.Idx → EReal) (r : Fin 256 → Fin 8192)
    (hx : ∀ p k, x0 (ix2 p k) = X (ix2 (r p) k)) (p : Fin 256) (u : Fin 1) :
    k0_pay4 (F := Ideal) x0 (ix2 p u) = unscaleArr X (ix2 (r p) u) := by
  rw [unscale0_apply]
  simp only [hx]
  rfl

/-- Row `p` of the input block at point `t` is row `256 t + p` of the input array. -/
theorem iblk0_apply (c : Dev nD) (t : Fin cfg0.N) (p : Fin 256) (k : Fin 4096) (h : 256 * t.val + p.val < 8192) :
    (iblk0 V c 0 t : Vec Ideal S256x4096 .f32) (ix2 p k) = (V c main_v0 : S8192x4096.Idx → EReal) (ix2 ⟨256 * t.val + p.val, h⟩ k) := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 256 + 1 * p.val = 256 * t.val + p.val; omega
  | ⟨1, _⟩ => show win0_0.index t (1 : Fin 2) * 4096 + 1 * k.val = k.val; omega

/-- What point `t` writes back to the codes' array is block `t` of the codes of the input array. -/
theorem flushed_codes0 (c : Dev nD) (t : Fin cfg0.N) :
    (dat0 (F := Ideal) V c).flushed 1 t = ((cfg0.win 1).blk t).view.read (Elt Ideal) (codesArr (V c main_v0)) := by
  show (cfg0.win 1).cut (grid0.coords t) ((dat0 V c).after 1 t) = _
  rw [after0_1]
  unfold out0_1
  rw [View.canon_unit_zero zero_offsets0]
  simp only [View.ld_unit_zero (S := S256x4096) zero_offsets0]
  have ht : t.val < 32 := t.isLt
  obtain ⟨-, -, e0, e1, -⟩ := idx_facts0 t
  refine funext fun (j : S256x4096.Idx) => ?_
  obtain ⟨p, q, rfl⟩ : ∃ p q, j = ix2 p q := ⟨j 0, j 1, eq_ix2 j⟩
  have hp : p.val < 256 := p.isLt
  show k0_pay3 (iblk0 V c 0 t) (ix2 p q) = codesArr (V c main_v0) (((cfg0.win 1).blk t).view.emb (ix2 p q))
  have hemb : ((cfg0.win 1).blk t).view.emb (ix2 p q) = (ix2 (⟨256 * t.val + p.val, by omega⟩ : Fin 8192) q : S8192x4096.Idx) := by
    funext a
    apply Fin.ext
    match a with
    | ⟨0, _⟩ => show win0_1.index t (0 : Fin 2) * 256 + 1 * p.val = 256 * t.val + p.val; omega
    | ⟨1, _⟩ => show win0_1.index t (1 : Fin 2) * 4096 + 1 * q.val = q.val; omega
  rw [hemb]
  exact codes_block0 (iblk0 V c 0 t) (V c main_v0) (fun p => ⟨256 * t.val + p.val, by have := p.isLt; omega⟩)
    (fun p k => iblk0_apply V c t p k _) p q

/-- What point `t` writes back to the factors' array is block `t` of the factor column of the input array. -/
theorem flushed_unscale0 (c : Dev nD) (t : Fin cfg0.N) :
    (dat0 (F := Ideal) V c).flushed 2 t = ((cfg0.win 2).blk t).view.read (Elt Ideal) (unscaleArr (V c main_v0)) := by
  show (cfg0.win 2).cut (grid0.coords t) ((dat0 V c).after 2 t) = _
  rw [after0_2]
  unfold out0_2
  rw [View.canon_unit_zero zero_offsets0]
  simp only [View.ld_unit_zero (S := S256x4096) zero_offsets0]
  have ht : t.val < 32 := t.isLt
  obtain ⟨-, -, -, -, e0, e1⟩ := idx_facts0 t
  refine funext fun (j : S256x1.Idx) => ?_
  obtain ⟨p, u, rfl⟩ : ∃ p u, j = ix2 p u := ⟨j 0, j 1, eq_ix2 j⟩
  have hp : p.val < 256 := p.isLt
  have hu : u.val < 1 := u.isLt
  show k0_pay4 (iblk0 V c 0 t) (ix2 p u) = unscaleArr (V c main_v0) (((cfg0.win 2).blk t).view.emb (ix2 p u))
  have hemb : ((cfg0.win 2).blk t).view.emb (ix2 p u) = (ix2 (⟨256 * t.val + p.val, by omega⟩ : Fin 8192) u : S8192x1.Idx) := by
    funext a
    apply Fin.ext
    match a with
    | ⟨0, _⟩ => show win0_2.index t (0 : Fin 2) * 256 + 1 * p.val = 256 * t.val + p.val; omega
    | ⟨1, _⟩ => show win0_2.index t (1 : Fin 2) * 1 + 1 * u.val = u.val; omega
  rw [hemb]
  exact unscale_block0 (iblk0 V c 0 t) (V c main_v0) (fun p => ⟨256 * t.val + p.val, by have := p.isLt; omega⟩)
    (fun p k => iblk0_apply V c t p k _) p u

/-- An index of the codes' array is in point `t`'s block iff each coordinate is in the block's range on its axis. -/
theorem mem_blk0_codes (t : Fin cfg0.N) (i : S8192x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1_0).slice (win0_1.rect t)).set ↔ _
  rw [View.set_slice_whole, Rect.mem_set_unit]
  exact Iff.rfl

/-- An index of the factors' array is in point `t`'s block iff each coordinate is in the block's range on its axis. -/
theorem mem_blk0_unscale (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_1).slice (win0_2.rect t)).set ↔ _
  rw [View.set_slice_whole, Rect.mem_set_unit]
  exact Iff.rfl

/-- Row `r` of the codes' array is written by point `r / 256`. -/
theorem cover0_codes (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hlt : (i 0).val / 256 < 32 := by omega
  refine ⟨⟨(i 0).val / 256, hlt⟩, flush0_1 _, ?_⟩
  obtain ⟨-, -, e0, e1, -⟩ := idx_facts0 ⟨(i 0).val / 256, hlt⟩
  rw [mem_blk0_codes]
  intro a
  match a with
  | ⟨0, _⟩ => show win0_1.index ⟨(i 0).val / 256, hlt⟩ (0 : Fin 2) * 256 ≤ (i 0).val ∧ (i 0).val < win0_1.index ⟨(i 0).val / 256, hlt⟩ (0 : Fin 2) * 256 + 256
              rw [e0]; show (i 0).val / 256 * 256 ≤ (i 0).val ∧ (i 0).val < (i 0).val / 256 * 256 + 256; omega
  | ⟨1, _⟩ => show win0_1.index ⟨(i 0).val / 256, hlt⟩ (1 : Fin 2) * 4096 ≤ (i 1).val ∧ (i 1).val < win0_1.index ⟨(i 0).val / 256, hlt⟩ (1 : Fin 2) * 4096 + 4096
              rw [e1]; omega

/-- Row `r` of the factors' array is written by point `r / 256`. -/
theorem cover0_unscale (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hlt : (i 0).val / 256 < 32 := by omega
  refine ⟨⟨(i 0).val / 256, hlt⟩, flush0_2 _, ?_⟩
  obtain ⟨-, -, -, -, e0, e1⟩ := idx_facts0 ⟨(i 0).val / 256, hlt⟩
  rw [mem_blk0_unscale]
  intro a
  match a with
  | ⟨0, _⟩ => show win0_2.index ⟨(i 0).val / 256, hlt⟩ (0 : Fin 2) * 256 ≤ (i 0).val ∧ (i 0).val < win0_2.index ⟨(i 0).val / 256, hlt⟩ (0 : Fin 2) * 256 + 256
              rw [e0]; show (i 0).val / 256 * 256 ≤ (i 0).val ∧ (i 0).val < (i 0).val / 256 * 256 + 256; omega
  | ⟨1, _⟩ => show win0_2.index ⟨(i 0).val / 256, hlt⟩ (1 : Fin 2) * 1 ≤ (i 1).val ∧ (i 1).val < win0_2.index ⟨(i 0).val / 256, hlt⟩ (1 : Fin 2) * 1 + 1
              rw [e1]; omega

/-- After the first pass the codes' array holds the codes of the input array, each row against its own scale. -/
theorem arr0_codes (c : Dev nD) : (dat0 (F := Ideal) V c).arrAt 1 cfg0.N = codesArr (V c main_v0) :=
  (dat0 (F := Ideal) V c).arrAt_eq_of_cover 1 _ (fun t _ => flushed_codes0 V c t) cover0_codes

/-- After the first pass the factors' array holds the per-row factors of the input array. -/
theorem arr0_unscale (c : Dev nD) : (dat0 (F := Ideal) V c).arrAt 2 cfg0.N = unscaleArr (V c main_v0) :=
  (dat0 (F := Ideal) V c).arrAt_eq_of_cover 2 _ (fun t _ => flushed_unscale0 V c t) cover0_unscale

end Cert.KerValue
end
-- ==== Proof.Arr1.lean ====
/-
  The second row-quantize pass as whole-array functions.

  The pass walks the [4096, 4096] input array in blocks of 256 whole rows; at point `t` it reads rows `256 t … 256 t + 255`, and writes the
  same rows of the codes' array and of the one-column array of factors. A code, and a factor, depends on its own row only,
  and the block holds that row whole: so what point `t` writes is block `t` of `codesArr` (of `unscaleArr`) of the input
  array. Row `r` lies in the block of point `r / 256`, so the blocks cover both output arrays, and each array ends holding
  that one function of the input array.
-/
import proofs.«101874_j37950331027660_2_alg».proof.Proof.Gen.KernelIdeal.Frame
import proofs.«101874_j37950331027660_2_alg».proof.Proof.PayQuant
import proofs.«101874_j37950331027660_2_alg».proof.Proof.KerSpec
import Idealize.ShloMosaic.Lib.Pipeline.Value

noncomputable section

namespace Cert.KerValue

open Cert.KernelIdeal Cert.KernelIdeal.Gen Idealize.ShloMosaic Idealize.ShloMosaic.ValueIdx Cert.Spec
open Idealize.ShloMosaic.TcCoe
open Idealize.ShloMosaic.Pipeline (Dat)

/-- The offsets of a whole-buffer access are zero. -/
theorem zero_offsets1 : (![0, 0] : Fin 2 → Nat) = fun _ => 0 := funext fun a => by fin_cases a <;> rfl

/-- The printed index maps, decided over the grid: at point `t` each of the three windows is at block `(t, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable [Cert.KernelIdeal.Facts]
variable (V : (c : Dev nD) → (b : Ref sig .tc) → Buf (Elt Ideal) ((c : Thread nD τ).loc b))

/-- The codes of a block of 256 rows whose rows are rows `r p` of a matrix `X` are the codes of `X` on those rows:
    a code depends on its own row only. -/
theorem codes_block1 (x0 : Vec Ideal S256x4096 .f32) (X : S4096x4096.Idx → EReal) (r : Fin 256 → Fin 4096)
    (hx : ∀ p k, x0 (ix2 p k) = X (ix2 (r p) k)) (p : Fin 256) (q : Fin 4096) :
    k1_pay2 (F := Ideal) x0 (ix2 p q) = codesArr X (ix2 (r p) q) := by
  rw [codes1_apply]
  simp only [hx]
  rfl

/-- The factors of such a block are the factors of `X` on those rows. -/
theorem unscale_block1 (x0 : Vec Ideal S256x4096 .f32) (X : S4096x4096.Idx → EReal) (r : Fin 256 → Fin 4096)
    (hx : ∀ p k, x0 (ix2 p k) = X (ix2 (r p) k)) (p : Fin 256) (u : Fin 1) :
    k1_pay3 (F := Ideal) x0 (ix2 p u) = unscaleArr X (ix2 (r p) u) := by
  rw [unscale1_apply]
  simp only [hx]
  rfl

/-- Row `p` of the input block at point `t` is row `256 t + p` of the input array. -/
theorem iblk1_apply (c : Dev nD) (t : Fin cfg1.N) (p : Fin 256) (k : Fin 4096) (h : 256 * t.val + p.val < 4096) :
    (iblk1 V c 0 t : Vec Ideal S256x4096 .f32) (ix2 p k) = (V c main_arg1 : S4096x4096.Idx → EReal) (ix2 ⟨256 * t.val + p.val, h⟩ k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 256 + 1 * p.val = 256 * t.val + p.val; omega
  | ⟨1, _⟩ => show win1_0.index t (1 : Fin 2) * 4096 + 1 * k.val = k.val; omega

/-- What point `t` writes back to the codes' array is block `t` of the codes of the input array. -/
theorem flushed_codes1 (c : Dev nD) (t : Fin cfg1.N) :
    (dat1 (F := Ideal) V c).flushed 1 t = ((cfg1.win 1).blk t).view.read (Elt Ideal) (codesArr (V c main_arg1)) := by
  show (cfg1.win 1).cut (grid1.coords t) ((dat1 V c).after 1 t) = _
  rw [after1_1]
  unfold out1_1
  rw [View.canon_unit_zero zero_offsets1]
  simp only [View.ld_unit_zero (S := S256x4096) zero_offsets1]
  have ht : t.val < 16 := t.isLt
  obtain ⟨-, -, e0, e1, -⟩ := idx_facts1 t
  refine funext fun (j : S256x4096.Idx) => ?_
  obtain ⟨p, q, rfl⟩ : ∃ p q, j = ix2 p q := ⟨j 0, j 1, eq_ix2 j⟩
  have hp : p.val < 256 := p.isLt
  show k1_pay2 (iblk1 V c 0 t) (ix2 p q) = codesArr (V c main_arg1) (((cfg1.win 1).blk t).view.emb (ix2 p q))
  have hemb : ((cfg1.win 1).blk t).view.emb (ix2 p q) = (ix2 (⟨256 * t.val + p.val, by omega⟩ : Fin 4096) q : S4096x4096.Idx) := by
    funext a
    apply Fin.ext
    match a with
    | ⟨0, _⟩ => show win1_1.index t (0 : Fin 2) * 256 + 1 * p.val = 256 * t.val + p.val; omega
    | ⟨1, _⟩ => show win1_1.index t (1 : Fin 2) * 4096 + 1 * q.val = q.val; omega
  rw [hemb]
  exact codes_block1 (iblk1 V c 0 t) (V c main_arg1) (fun p => ⟨256 * t.val + p.val, by have := p.isLt; omega⟩)
    (fun p k => iblk1_apply V c t p k _) p q

/-- What point `t` writes back to the factors' array is block `t` of the factor column of the input array. -/
theorem flushed_unscale1 (c : Dev nD) (t : Fin cfg1.N) :
    (dat1 (F := Ideal) V c).flushed 2 t = ((cfg1.win 2).blk t).view.read (Elt Ideal) (unscaleArr (V c main_arg1)) := by
  show (cfg1.win 2).cut (grid1.coords t) ((dat1 V c).after 2 t) = _
  rw [after1_2]
  unfold out1_2
  rw [View.canon_unit_zero zero_offsets1]
  simp only [View.ld_unit_zero (S := S256x4096) zero_offsets1]
  have ht : t.val < 16 := t.isLt
  obtain ⟨-, -, -, -, e0, e1⟩ := idx_facts1 t
  refine funext fun (j : S256x1.Idx) => ?_
  obtain ⟨p, u, rfl⟩ : ∃ p u, j = ix2 p u := ⟨j 0, j 1, eq_ix2 j⟩
  have hp : p.val < 256 := p.isLt
  have hu : u.val < 1 := u.isLt
  show k1_pay3 (iblk1 V c 0 t) (ix2 p u) = unscaleArr (V c main_arg1) (((cfg1.win 2).blk t).view.emb (ix2 p u))
  have hemb : ((cfg1.win 2).blk t).view.emb (ix2 p u) = (ix2 (⟨256 * t.val + p.val, by omega⟩ : Fin 4096) u : S4096x1.Idx) := by
    funext a
    apply Fin.ext
    match a with
    | ⟨0, _⟩ => show win1_2.index t (0 : Fin 2) * 256 + 1 * p.val = 256 * t.val + p.val; omega
    | ⟨1, _⟩ => show win1_2.index t (1 : Fin 2) * 1 + 1 * u.val = u.val; omega
  rw [hemb]
  exact unscale_block1 (iblk1 V c 0 t) (V c main_arg1) (fun p => ⟨256 * t.val + p.val, by have := p.isLt; omega⟩)
    (fun p k => iblk1_apply V c t p k _) p u

/-- An index of the codes' array is in point `t`'s block iff each coordinate is in the block's range on its axis. -/
theorem mem_blk1_codes (t : Fin cfg1.N) (i : S4096x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v2_0).slice (win1_1.rect t)).set ↔ _
  rw [View.set_slice_whole, Rect.mem_set_unit]
  exact Iff.rfl

/-- An index of the factors' array is in point `t`'s block iff each coordinate is in the block's range on its axis. -/
theorem mem_blk1_unscale (t : Fin cfg1.N) (i : S4096x1.Idx) :
    i ∈ ((cfg1.win 2).blk t).view.set ↔ ∀ a : Fin 2, win1_2.index t a * S256x1.size a ≤ (i a).val ∧ (i a).val < win1_2.index t a * S256x1.size a + S256x1.size a := by
  show i ∈ ((View.whole main_v2_1).slice (win1_2.rect t)).set ↔ _
  rw [View.set_slice_whole, Rect.mem_set_unit]
  exact Iff.rfl

/-- Row `r` of the codes' array is written by point `r / 256`. -/
theorem cover1_codes (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  have hlt : (i 0).val / 256 < 16 := by omega
  refine ⟨⟨(i 0).val / 256, hlt⟩, flush1_1 _, ?_⟩
  obtain ⟨-, -, e0, e1, -⟩ := idx_facts1 ⟨(i 0).val / 256, hlt⟩
  rw [mem_blk1_codes]
  intro a
  match a with
  | ⟨0, _⟩ => show win1_1.index ⟨(i 0).val / 256, hlt⟩ (0 : Fin 2) * 256 ≤ (i 0).val ∧ (i 0).val < win1_1.index ⟨(i 0).val / 256, hlt⟩ (0 : Fin 2) * 256 + 256
              rw [e0]; show (i 0).val / 256 * 256 ≤ (i 0).val ∧ (i 0).val < (i 0).val / 256 * 256 + 256; omega
  | ⟨1, _⟩ => show win1_1.index ⟨(i 0).val / 256, hlt⟩ (1 : Fin 2) * 4096 ≤ (i 1).val ∧ (i 1).val < win1_1.index ⟨(i 0).val / 256, hlt⟩ (1 : Fin 2) * 4096 + 4096
              rw [e1]; omega

/-- Row `r` of the factors' array is written by point `r / 256`. -/
theorem cover1_unscale (i : S4096x1.Idx) :
    ∃ t : Fin cfg1.N, (cfg1.win 2).flush t = true ∧ i ∈ ((cfg1.win 2).blk t).view.set := by
  have hi0 : (i 0).val < 4096 := (i 0).isLt
  have hi1 : (i 1).val < 1 := (i 1).isLt
  have hlt : (i 0).val / 256 < 16 := by omega
  refine ⟨⟨(i 0).val / 256, hlt⟩, flush1_2 _, ?_⟩
  obtain ⟨-, -, -, -, e0, e1⟩ := idx_facts1 ⟨(i 0).val / 256, hlt⟩
  rw [mem_blk1_unscale]
  intro a
  match a with
  | ⟨0, _⟩ => show win1_2.index ⟨(i 0).val / 256, hlt⟩ (0 : Fin 2) * 256 ≤ (i 0).val ∧ (i 0).val < win1_2.index ⟨(i 0).val / 256, hlt⟩ (0 : Fin 2) * 256 + 256
              rw [e0]; show (i 0).val / 256 * 256 ≤ (i 0).val ∧ (i 0).val < (i 0).val / 256 * 256 + 256; omega
  | ⟨1, _⟩ => show win1_2.index ⟨(i 0).val / 256, hlt⟩ (1 : Fin 2) * 1 ≤ (i 1).val ∧ (i 1).val < win1_2.index ⟨(i 0).val / 256, hlt⟩ (1 : Fin 2) * 1 + 1
              rw [e1]; omega

/-- After the second pass the codes' array holds the codes of the input array, each row against its own scale. -/
theorem arr1_codes (c : Dev nD) : (dat1 (F := Ideal) V c).arrAt 1 cfg1.N = codesArr (V c main_arg1) :=
  (dat1 (F := Ideal) V c).arrAt_eq_of_cover 1 _ (fun t _ => flushed_codes1 V c t) cover1_codes

/-- After the second pass the factors' array holds the per-row factors of the input array. -/
theorem arr1_unscale (c : Dev nD) : (dat1 (F := Ideal) V c).arrAt 2 cfg1.N = unscaleArr (V c main_arg1) :=
  (dat1 (F := Ideal) V c).arrAt_eq_of_cover 2 _ (fun t _ => flushed_unscale1 V c t) cover1_unscale

end Cert.KerValue
end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.PayMatmul.lean ====
/-
  The body of the contraction pass, read at one entry of its output block.

  The body takes a block of 512 rows of left codes, a block of 1024 rows of right codes, the 512 left rows' factors as a
  column, the 1024 right rows' factors as a row vector and 1024 bias entries. It multiplies rows with rows into a zero
  accumulator, multiplies the product entrywise by the column broadcast along the rows times the row vector broadcast
  down the columns, and adds the bias broadcast down the columns. At (p, q) that is the sum over k of left (p, k) times
  right (q, k), times the column's entry p times the row vector's entry q, plus the bias entry q.
-/
import proofs.«101874_j37950331027660_2_alg».proof.Proof.Gen.KernelIdeal.Skeleton
import proofs.«101874_j37950331027660_2_alg».proof.Proof.KerSpec
import proofs.«101874_j37950331027660_2_alg».proof.Proof.LibRowsDot
import proofs.«101874_j37950331027660_2_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

namespace Cert.KerValue

open Cert.KernelIdeal Cert.KernelIdeal.Gen Idealize.ShloMosaic Idealize.ShloMosaic.ValueIdx Cert.Spec
open scoped BigOperators

variable [Cert.KernelIdeal.Facts]

/-- One output block of the contraction pass at (p, q): row p of the left codes against row q of the right codes,
    the sum scaled by the left column's entry p and the right row vector's entry q, plus the bias entry q. -/
theorem matmul_pay_apply (x0 : Vec Ideal S512x4096 .bf16) (x1 : Vec Ideal S1024x4096 .bf16) (x2 : Vec Ideal S512x1 .f32)
    (x3 : Vec Ideal S1x1024 .f32) (x4 : Vec Ideal S1024 .f32) (p : Fin 512) (q : Fin 1024) :
    k2_pay1 (F := Ideal) x0 x1 x2 x3 x4 (ix2 p q)
      = (∑ k : Fin 4096, x0 (ix2 p k) * x1 (ix2 q k)) * (x2 (ix2 p (0 : Fin 1)) * x3 (ix2 (0 : Fin 1) q)) + x4 (ix1 q) := by
  unfold k2_pay1
  rw [addf_apply, mulf_apply, mulf_apply]
  rw [shapeCast_self, shapeCast_self, shapeCast_self, shapeCast_self]
  rw [Cert.Lib.broadcastTo_a1_ab_apply x2 _ p q, broadcastTo_1b_ab_apply x3 _ p q, broadcastTo_1b_ab_apply _ _ p q,
    shapeCast_a_1a_apply x4 _ (0 : Fin 1) q]
  exact congrArg (fun z : EReal => z * (x2 (ix2 p (0 : Fin 1)) * x3 (ix2 (0 : Fin 1) q)) + x4 (ix1 q))
    (Cert.Lib.matmul_rows_zero_apply (φ₁ := .bf16) (φ₂ := .bf16) _ none x0 x1 p q)

end Cert.KerValue

end
-- ==== Proof.Arr2.lean ====
/-
  The contraction pass as a whole-array function.

  The pass runs its body once per point (j, i) of a 4 by 16 grid. At a point the body reads 512 rows of left codes
  (row block i), 1024 rows of right codes (row block j), the left rows' factors (row block i of a column), the right rows'
  factors (column block j of a row vector) and 1024 bias entries (block j), and writes block (i, j) of the output. A
  block's entry at a coordinate inside the block sits, in its array, at block index times block size plus that
  coordinate, so entry (p, q) of output block (i, j) is entry (512 i + p, 1024 j + q) of the output, computed from rows
  512 i + p and 1024 j + q of the code arrays and the matching factors and bias entry. The 64 output blocks tile the
  output array, so after the pass the array is the whole-array function of the arrays the pass found.
-/
import proofs.«101874_j37950331027660_2_alg».proof.Proof.Gen.KernelIdeal.Frame
import proofs.«101874_j37950331027660_2_alg».proof.Proof.PayMatmul
import proofs.«101874_j37950331027660_2_alg».proof.Proof.KerSpec
import Idealize.ShloMosaic.Lib.Pipeline.Value

set_option maxRecDepth 16384

noncomputable section

namespace Cert.KerValue

open Cert.KernelIdeal Cert.KernelIdeal.Gen Idealize.ShloMosaic Idealize.ShloMosaic.ValueIdx Cert.Spec
open Idealize.ShloMosaic.TcCoe Idealize.SL.Sem
open Idealize.ShloMosaic.Pipeline (Dat)
open scoped BigOperators

variable [Cert.KernelIdeal.Facts]

theorem hz2 : (![0, 0] : Fin 2 → Nat) = fun _ => 0 := funext fun a => by fin_cases a <;> rfl
theorem hz1 : (![0] : Fin 1 → Nat) = fun _ => 0 := funext fun a => by fin_cases a; rfl

/-- The index maps over the grid: the left codes' and the left column's row block is the output's row block, the right
    codes' row block, the right row vector's column block and the bias's block are the output's column block, every
    other block coordinate is 0, and the output's block coordinates stay below 16 and 4. -/
theorem idx_facts : ∀ t : Fin cfg2.N,
    win2_0.index t (0 : Fin 2) = win2_5.index t (0 : Fin 2) ∧ win2_0.index t (1 : Fin 2) = 0
    ∧ win2_1.index t (0 : Fin 2) = win2_5.index t (1 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = win2_5.index t (1 : Fin 2)
    ∧ win2_4.index t (0 : Fin 1) = win2_5.index t (1 : Fin 2)
    ∧ win2_5.index t (0 : Fin 2) ≤ 15 ∧ win2_5.index t (1 : Fin 2) ≤ 3 :=
  (by decide +kernel : ∀ t : Fin grid2.N, _)

/-- Every block of the output array is some point's. -/
theorem idx_onto : ∀ (q0 : Fin 16) (q1 : Fin 4), ∃ t : Fin cfg2.N, win2_5.index t = ![q0.val, q1.val] :=
  (by decide +kernel : ∀ (q0 : Fin 16) (q1 : Fin 4), ∃ t : Fin grid2.N, win2_5.index t = ![q0.val, q1.val])

/-- The whole-array function of the contraction pass at (r, n). -/
theorem scaledRowsDot_at {M N K : ℕ} (Q : (⟨2, ![M, K]⟩ : Shape).Idx → EReal) (Wq : (⟨2, ![N, K]⟩ : Shape).Idx → EReal)
    (sx : (⟨2, ![M, 1]⟩ : Shape).Idx → EReal) (sw : (⟨2, ![1, N]⟩ : Shape).Idx → EReal) (b : (⟨1, ![N]⟩ : Shape).Idx → EReal)
    (r : Fin M) (n : Fin N) :
    scaledRowsDot Q Wq sx sw b (ix2 r n)
      = (∑ k : Fin K, Q (ix2 r k) * Wq (ix2 n k)) * (sx (ix2 r (0 : Fin 1)) * sw (ix2 (0 : Fin 1) n)) + b (ix1 n) := rfl

section Blocks

variable (V : (c : Dev nD) → (b : Ref sig .tc) → Buf (Elt Ideal) ((c : Thread nD τ).loc b)) (c : Dev nD) (t : Fin cfg2.N)

/-- The block of left codes at a point: rows of the left code array from the output block's first row on. -/
theorem iblk_codes_left (p : Fin 512) (k : Fin 4096) (r : Fin 8192)
    (hr : r.val = win2_5.index t (0 : Fin 2) * 512 + 1 * p.val) :
    (iblk2 (F := Ideal) V c 0 t : Vec Ideal S512x4096 .bf16) (ix2 p k) = V c main_v1_0 (ix2 r k) := by
  obtain ⟨e0, e1, -⟩ := idx_facts t
  unfold iblk2
  rw [View.read_apply]
  refine congrArg (V c main_v1_0) (funext fun a => Fin.ext ?_)
  match a with
  | ⟨0, _⟩ => show win2_0.index t (0 : Fin 2) * 512 + 1 * p.val = r.val; omega
  | ⟨1, _⟩ => show win2_0.index t (1 : Fin 2) * 4096 + 1 * k.val = k.val; omega

/-- The block of right codes at a point: rows of the right code array from the output block's first column on. -/
theorem iblk_codes_right (q : Fin 1024) (k : Fin 4096) (n : Fin 4096)
    (hn : n.val = win2_5.index t (1 : Fin 2) * 1024 + 1 * q.val) :
    (iblk2 (F := Ideal) V c 1 t : Vec Ideal S1024x4096 .bf16) (ix2 q k) = V c main_v2_0 (ix2 n k) := by
  obtain ⟨-, -, e0, e1, -⟩ := idx_facts t
  unfold iblk2
  rw [View.read_apply]
  refine congrArg (V c main_v2_0) (funext fun a => Fin.ext ?_)
  match a with
  | ⟨0, _⟩ => show win2_1.index t (0 : Fin 2) * 1024 + 1 * q.val = n.val; omega
  | ⟨1, _⟩ => show win2_1.index t (1 : Fin 2) * 4096 + 1 * k.val = k.val; omega

/-- The block of the left rows' factors at a point. -/
theorem iblk_col_left (p : Fin 512) (r : Fin 8192)
    (hr : r.val = win2_5.index t (0 : Fin 2) * 512 + 1 * p.val) :
    (iblk2 (F := Ideal) V c 2 t : Vec Ideal S512x1 .f32) (ix2 p (0 : Fin 1)) = V c main_v1_1 (ix2 r (0 : Fin 1)) := by
  obtain ⟨-, -, -, -, e0, e1, -⟩ := idx_facts t
  unfold iblk2
  rw [View.read_apply]
  refine congrArg (V c main_v1_1) (funext fun a => Fin.ext ?_)
  match a with
  | ⟨0, _⟩ => show win2_2.index t (0 : Fin 2) * 512 + 1 * p.val = r.val; omega
  | ⟨1, _⟩ => show win2_2.index t (1 : Fin 2) * 1 + 1 * 0 = 0; omega

/-- The block of the right rows' factors at a point. -/
theorem iblk_row_right (q : Fin 1024) (n : Fin 4096)
    (hn : n.val = win2_5.index t (1 : Fin 2) * 1024 + 1 * q.val) :
    (iblk2 (F := Ideal) V c 3 t : Vec Ideal S1x1024 .f32) (ix2 (0 : Fin 1) q) = V c main_v3 (ix2 (0 : Fin 1) n) := by
  obtain ⟨-, -, -, -, -, -, e0, e1, -⟩ := idx_facts t
  unfold iblk2
  rw [View.read_apply]
  refine congrArg (V c main_v3) (funext fun a => Fin.ext ?_)
  match a with
  | ⟨0, _⟩ => show win2_3.index t (0 : Fin 2) * 1 + 1 * 0 = 0; omega
  | ⟨1, _⟩ => show win2_3.index t (1 : Fin 2) * 1024 + 1 * q.val = n.val; omega

/-- The block of bias entries at a point. -/
theorem iblk_bias (q : Fin 1024) (n : Fin 4096)
    (hn : n.val = win2_5.index t (1 : Fin 2) * 1024 + 1 * q.val) :
    (iblk2 (F := Ideal) V c 4 t : Vec Ideal S1024 .f32) (ix1 q) = V c main_arg2 (ix1 n) := by
  obtain ⟨-, -, -, -, -, -, -, -, e0, -⟩ := idx_facts t
  unfold iblk2
  rw [View.read_apply]
  refine congrArg (V c main_arg2) (funext fun a => Fin.ext ?_)
  match a with
  | ⟨0, _⟩ => show win2_4.index t (0 : Fin 1) * 1024 + 1 * q.val = n.val; omega

/-- What the body leaves at entry (p, q) of a point's output block is the whole-array function at the entry (r, n)
    of the array that the block's rectangle puts (p, q) on. -/
theorem point_eq (p : Fin 512) (q : Fin 1024) (r : Fin 8192) (n : Fin 4096)
    (hr : r.val = win2_5.index t (0 : Fin 2) * 512 + 1 * p.val)
    (hn : n.val = win2_5.index t (1 : Fin 2) * 1024 + 1 * q.val) :
    k2_pay1 (F := Ideal) (iblk2 V c 0 t) (iblk2 V c 1 t) (iblk2 V c 2 t) (iblk2 V c 3 t) (iblk2 V c 4 t) (ix2 p q)
      = scaledRowsDot (V c main_v1_0) (V c main_v2_0) (V c main_v1_1) (V c main_v3) (V c main_arg2) (ix2 r n) := by
  rw [matmul_pay_apply]
  rw [scaledRowsDot_at]
  rw [iblk_col_left V c t p r hr, iblk_row_right V c t q n hn, iblk_bias V c t q n hn]
  rw [Finset.sum_congr rfl fun k _ => by rw [iblk_codes_left V c t p k r hr, iblk_codes_right V c t q k n hn]]

end Blocks

/-- What a point writes back is its block of the whole-array function of the arrays as the pass finds them. -/
theorem flushed_eq (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal)
      (scaledRowsDot (V c main_v1_0) (V c main_v2_0) (V c main_v1_1) (V c main_v3) (V c main_arg2)) := by
  show (cfg2.win 5).cut (grid2.coords t) ((dat2 V c).after 5 t) = _
  rw [after2_5]
  unfold out2_5
  rw [View.canon_unit_zero hz2]
  simp only [View.ld_unit_zero (S := S512x4096) hz2, View.ld_unit_zero (S := S1024x4096) hz2, View.ld_unit_zero (S := S512x1) hz2,
    View.ld_unit_zero (S := S1x1024) hz2, View.ld_unit_zero (S := S1024) hz1]
  refine funext fun (j : S512x1024.Idx) => ?_
  have hp : (j 0).val < 512 := (j 0).isLt
  have hq : (j 1).val < 1024 := (j 1).isLt
  have hj : (cfg2.win 5).xinj (grid2.coords t) j = ix2 (⟨(j 0).val, hp⟩ : Fin 512) (⟨(j 1).val, hq⟩ : Fin 1024) :=
    funext fun a => by match a with | ⟨0, _⟩ => rfl | ⟨1, _⟩ => rfl
  obtain ⟨-, -, -, -, -, -, -, -, -, b0, b1⟩ := idx_facts t
  have hr : win2_5.index t (0 : Fin 2) * 512 + 1 * (j 0).val < 8192 := by omega
  have hn : win2_5.index t (1 : Fin 2) * 1024 + 1 * (j 1).val < 4096 := by omega
  have hi : ((cfg2.win 5).blk t).view.emb j
      = ix2 (⟨win2_5.index t (0 : Fin 2) * 512 + 1 * (j 0).val, hr⟩ : Fin 8192) (⟨win2_5.index t (1 : Fin 2) * 1024 + 1 * (j 1).val, hn⟩ : Fin 4096) :=
    funext fun a => Fin.ext (by match a with | ⟨0, _⟩ => rfl | ⟨1, _⟩ => rfl)
  have key := point_eq V c t ⟨(j 0).val, hp⟩ ⟨(j 1).val, hq⟩ ⟨_, hr⟩ ⟨_, hn⟩ rfl rfl
  rw [← hj, ← hi] at key
  exact key

/-- An index of the output array is in a point's block iff each coordinate is in the block's range on its axis. -/
theorem mem_blk (t : Fin cfg2.N) (i : S8192x4096.Idx) :
    i ∈ ((cfg2.win 5).blk t).view.set ↔ ∀ a : Fin 2, win2_5.index t a * S512x1024.size a ≤ (i a).val
      ∧ (i a).val < win2_5.index t a * S512x1024.size a + S512x1024.size a := by
  show i ∈ ((View.whole main_v4).slice (win2_5.rect t)).set ↔ _
  rw [View.set_slice_whole, Rect.mem_set_unit]
  exact Iff.rfl

/-- The blocks tile the output array: row r lies in row block r / 512, column n in column block n / 1024, and every
    pair of block coordinates is some point's. -/
theorem cover (i : S8192x4096.Idx) : ∃ t : Fin cfg2.N, (cfg2.win 5).flush t = true ∧ i ∈ ((cfg2.win 5).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win2_5.index t (0 : Fin 2) = (i 0).val / 512 := congrFun ht 0
  have q1 : win2_5.index t (1 : Fin 2) = (i 1).val / 1024 := congrFun ht 1
  refine ⟨t, flush2_5 t, ?_⟩
  rw [mem_blk]
  intro a
  match a with
  | ⟨0, _⟩ =>
    show win2_5.index t (0 : Fin 2) * 512 ≤ (i 0).val ∧ (i 0).val < win2_5.index t (0 : Fin 2) * 512 + 512
    omega
  | ⟨1, _⟩ =>
    show win2_5.index t (1 : Fin 2) * 1024 ≤ (i 1).val ∧ (i 1).val < win2_5.index t (1 : Fin 2) * 1024 + 1024
    omega

/-- After the contraction pass the output array holds, at (r, n), the codes of row r against the codes of row n, scaled
    by the two rows' factors, plus the bias entry n. -/
theorem arr2_out (V : (c : Dev nD) → (b : Ref sig .tc) → Buf (Elt Ideal) ((c : Thread nD τ).loc b)) (c : Dev nD) :
    (dat2 (F := Ideal) V c).arrAt 5 cfg2.N = scaledRowsDot (V c main_v1_0) (V c main_v2_0) (V c main_v1_1) (V c main_v3) (V c main_arg2) :=
  (dat2 V c).arrAt_eq_of_cover 5 _ (fun t _ => flushed_eq V c t) cover

end Cert.KerValue

end
-- ==== Proof.RunValue.lean ====
/-
  What the result buffer holds after the run, as one function of the three argument arrays.

  The boundary contents are walked back from the result to the launch memory: the last reshape unflattens the matmul
  region's output; that output is the scaled row-by-row contraction of the region's five arrays as it found them; of
  those, the two code matrices and the first factor column are what the quantize regions left, the row of factors is
  the second quantize region's factor column recast by the middle reshape, and the bias is the launch memory's; the
  first quantize region read the flattened first argument, the second the second argument as launched.
-/
import proofs.«101874_j37950331027660_2_alg».proof.Proof.Gen.KernelIdeal.Frame
import proofs.«101874_j37950331027660_2_alg».proof.Proof.Arr0
import proofs.«101874_j37950331027660_2_alg».proof.Proof.Arr1
import proofs.«101874_j37950331027660_2_alg».proof.Proof.Arr2
import proofs.«101874_j37950331027660_2_alg».proof.Proof.KerSpec

noncomputable section

namespace Cert.KerValue

open Cert.KernelIdeal Cert.KernelIdeal.Gen Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The first quantize region reads the first argument flattened to `[8192, 4096]`. -/
theorem entry0_flat (c : Dev nD) :
    V1 m ρ c main_v0 = shapeCast S8192x4096 (m ((c : Thread nD τ).loc main_arg0)) shapeCasts_S4x2048x4096_S8192x4096 := by
  show StableHlo.after hostOps0 (W0 m ρ c) (Proc.devRef .tc main_v0) = _
  after_results
  rfl

/-- The second quantize region reads the second argument as launched. -/
theorem entry1_arg1 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results

/-- The matmul region finds the codes of the flattened first argument, -/
theorem entry2_codes_x (c : Dev nD) : V4 m ρ c main_v1_0 = codesArr (V1 m ρ c main_v0) := by
  have h : V4 m ρ c main_v1_0 = W3 m ρ c (Proc.devRef .tc main_v1_0) := by
    show StableHlo.after hostOps2 (W3 m ρ c) (Proc.devRef .tc main_v1_0) = _
    after_results
  rw [h]
  exact (W3_of_ne m ρ c main_v1_0 (by decide)).trans ((W2_arr m ρ c 1).trans (arr0_codes (V1 m ρ) c))

/-- its factor column, -/
theorem entry2_unscale_x (c : Dev nD) : V4 m ρ c main_v1_1 = unscaleArr (V1 m ρ c main_v0) := by
  have h : V4 m ρ c main_v1_1 = W3 m ρ c (Proc.devRef .tc main_v1_1) := by
    show StableHlo.after hostOps2 (W3 m ρ c) (Proc.devRef .tc main_v1_1) = _
    after_results
  rw [h]
  exact (W3_of_ne m ρ c main_v1_1 (by decide)).trans ((W2_arr m ρ c 2).trans (arr0_unscale (V1 m ρ) c))

/-- the codes of the second argument, -/
theorem entry2_codes_w (c : Dev nD) : V4 m ρ c main_v2_0 = codesArr (V2 m ρ c main_arg1) := by
  have h : V4 m ρ c main_v2_0 = W3 m ρ c (Proc.devRef .tc main_v2_0) := by
    show StableHlo.after hostOps2 (W3 m ρ c) (Proc.devRef .tc main_v2_0) = _
    after_results
  rw [h]
  exact (W3_arr m ρ c 1).trans (arr1_codes (V2 m ρ) c)

/-- its factor column recast as a row, -/
theorem entry2_unscale_w (c : Dev nD) :
    V4 m ρ c main_v3 = shapeCast S1x4096 (unscaleArr (V2 m ρ c main_arg1)) shapeCasts_S4096x1_S1x4096 := by
  have h : V4 m ρ c main_v3 = shapeCast S1x4096 (W3 m ρ c (Proc.devRef .tc main_v2_1)) shapeCasts_S4096x1_S1x4096 := by
    show StableHlo.after hostOps2 (W3 m ρ c) (Proc.devRef .tc main_v3) = _
    after_results
    rfl
  rw [h]
  exact congrArg (fun v => shapeCast S1x4096 v shapeCasts_S4096x1_S1x4096) ((W3_arr m ρ c 2).trans (arr1_unscale (V2 m ρ) c))

/-- and the bias as launched. -/
theorem entry2_bias (c : Dev nD) : V4 m ρ c main_arg2 = m ((c : Thread nD τ).loc main_arg2) := by
  have h : V4 m ρ c main_arg2 = W3 m ρ c (Proc.devRef .tc main_arg2) := by
    show StableHlo.after hostOps2 (W3 m ρ c) (Proc.devRef .tc main_arg2) = _
    after_results
  rw [h]
  refine (W3_of_ne m ρ c main_arg2 (by decide)).trans ((W2_of_ne m ρ c main_arg2 (by decide)).trans ?_)
  show StableHlo.after hostOps0 (W0 m ρ c) (Proc.devRef .tc main_arg2) = _
  after_results

/-- The result buffer at the last boundary: the three passes composed, unflattened. -/
theorem result_eq (c : Dev nD) :
    W6 m ρ c (Proc.devRef .tc main_v5)
      = shapeCast S4x2048x4096
          (scaledRowsDot
            (codesArr (shapeCast S8192x4096 (m ((c : Thread nD τ).loc main_arg0)) shapeCasts_S4x2048x4096_S8192x4096))
            (codesArr (m ((c : Thread nD τ).loc main_arg1)))
            (unscaleArr (shapeCast S8192x4096 (m ((c : Thread nD τ).loc main_arg0)) shapeCasts_S4x2048x4096_S8192x4096))
            (shapeCast S1x4096 (unscaleArr (m ((c : Thread nD τ).loc main_arg1))) shapeCasts_S4096x1_S1x4096)
            (m ((c : Thread nD τ).loc main_arg2)))
          shapeCasts_S8192x4096_S4x2048x4096 := by
  have h : W6 m ρ c (Proc.devRef .tc main_v5)
      = shapeCast S4x2048x4096 (W5 m ρ c (Proc.devRef .tc main_v4)) shapeCasts_S8192x4096_S4x2048x4096 := by
    show StableHlo.after hostOps3 (W5 m ρ c) (Proc.devRef .tc main_v5) = _
    after_results
    rfl
  rw [h, show W5 m ρ c (Proc.devRef .tc main_v4) = _ from (W5_arr m ρ c 5).trans (arr2_out (V4 m ρ) c),
    entry2_codes_x, entry2_codes_w, entry2_unscale_x, entry2_unscale_w, entry2_bias, entry0_flat, entry1_arg1]

end Cert.KerValue

end
-- ==== Proof.KerBridge.lean ====
/-
  The kernel's three passes composed: its result at `(a, s, o)` is `kerAt`.

  The kernel flattens `x : [4, 2048, 4096]` to `[8192, 4096]` rows `r = 2048·a + s`, quantizes the rows of the flat `x` and of
  `w`, turns the factor column of `w` into a row vector, contracts codes with codes with the two factors applied to the
  sum, adds the bias, and unflattens. Row `r` of the flat array is row `(a, s)` of `x`, so the row's scale, its codes and its
  factor are those of `x` at `(a, s)`; the row vector's entry `o` is the factor column's entry `o`.
-/
import proofs.«101874_j37950331027660_2_alg».proof.Proof.KerSpec
import Idealize.ShloMosaic.Lib.Pipeline.Value

noncomputable section

namespace Cert.Spec

open Idealize.ShloMosaic Idealize.ShloMosaic.ValueIdx
open scoped BigOperators

/-- The flat row `2048·a + s` that row `(a, s)` becomes. -/
def flatRow (a : Fin 4) (s : Fin 2048) : Fin 8192 := ⟨a.val * 2048 + s.val, by have := a.isLt; have := s.isLt; omega⟩

variable (x : (⟨3, ![4, 2048, 4096]⟩ : Shape).Idx → EReal) (w : (⟨2, ![4096, 4096]⟩ : Shape).Idx → EReal)
  (b : (⟨1, ![4096]⟩ : Shape).Idx → EReal)
  (h1 : (⟨3, ![4, 2048, 4096]⟩ : Shape).ShapeCasts ⟨2, ![8192, 4096]⟩)
  (h2 : (⟨2, ![4096, 1]⟩ : Shape).ShapeCasts ⟨2, ![1, 4096]⟩)
  (h3 : (⟨2, ![8192, 4096]⟩ : Shape).ShapeCasts ⟨3, ![4, 2048, 4096]⟩)

/-- The flat array at `(2048·a + s, k)` is `x` at `(a, s, k)`. -/
theorem flat_apply (a : Fin 4) (s : Fin 2048) (k : Fin 4096) :
    shapeCast ⟨2, ![8192, 4096]⟩ x h1 (ix2 (flatRow a s) k) = x (ix3 a s k) :=
  shapeCast_apply x h1 _ _ (by
    rw [Shape.rowMajor_val_three, Shape.rowMajor_val_two]
    show (a.val * 2048 + s.val) * 4096 + k.val = (a.val * 2048 + s.val) * 4096 + k.val
    rfl)

/-- Unflattening reads `(a, s, o)` at the flat `(2048·a + s, o)`. -/
theorem unflat_apply (Y : (⟨2, ![8192, 4096]⟩ : Shape).Idx → EReal) (a : Fin 4) (s : Fin 2048) (o : Fin 4096) :
    shapeCast ⟨3, ![4, 2048, 4096]⟩ Y h3 (ix3 a s o) = Y (ix2 (flatRow a s) o) :=
  shapeCast_apply Y h3 _ _ (by
    rw [Shape.rowMajor_val_three, Shape.rowMajor_val_two]
    show (a.val * 2048 + s.val) * 4096 + o.val = (a.val * 2048 + s.val) * 4096 + o.val
    rfl)

/-- A column `[4096, 1]` recast as a row `[1, 4096]` reads `(0, o)` at the column's `(o, 0)`. -/
theorem colAsRow_apply (v : (⟨2, ![4096, 1]⟩ : Shape).Idx → EReal) (o : Fin 4096) :
    shapeCast ⟨2, ![1, 4096]⟩ v h2 (ix2 (0 : Fin 1) o) = v (ix2 o (0 : Fin 1)) :=
  shapeCast_apply v h2 _ _ (by
    rw [Shape.rowMajor_val_two, Shape.rowMajor_val_two]
    show o.val * 1 + 0 = 0 * 4096 + o.val
    omega)

/-- The scale of flat row `2048·a + s` is the scale of row `(a, s)` of `x`. -/
theorem scale2_flat (a : Fin 4) (s : Fin 2048) :
    scale2 (shapeCast ⟨2, ![8192, 4096]⟩ x h1) (flatRow a s) = scale3 x a s := by
  unfold scale2 scale3
  exact congrArg rowAbsMax (funext fun k => flat_apply x h1 a s k)

/-- The composition of the three passes at `(a, s, o)`. -/
theorem passes_apply (a : Fin 4) (s : Fin 2048) (o : Fin 4096) :
    shapeCast ⟨3, ![4, 2048, 4096]⟩
      (scaledRowsDot (codesArr (shapeCast ⟨2, ![8192, 4096]⟩ x h1)) (codesArr w)
        (unscaleArr (shapeCast ⟨2, ![8192, 4096]⟩ x h1)) (shapeCast ⟨2, ![1, 4096]⟩ (unscaleArr w) h2) b) h3 (ix3 a s o)
      = kerAt x w b a s o := by
  rw [unflat_apply]
  unfold scaledRowsDot kerAt
  show (∑ k : Fin 4096, codesArr (shapeCast ⟨2, ![8192, 4096]⟩ x h1) (ix2 (flatRow a s) k) * codesArr w (ix2 o k))
      * (unscaleArr (shapeCast ⟨2, ![8192, 4096]⟩ x h1) (ix2 (flatRow a s) (0 : Fin 1))
        * shapeCast ⟨2, ![1, 4096]⟩ (unscaleArr w) h2 (ix2 (0 : Fin 1) o)) + b (ix1 o) = _
  rw [colAsRow_apply]
  unfold codesArr unscaleArr
  show (∑ k : Fin 4096, code (scale2 (shapeCast ⟨2, ![8192, 4096]⟩ x h1) (flatRow a s))
        (shapeCast ⟨2, ![8192, 4096]⟩ x h1 (ix2 (flatRow a s) k)) * code (scale2 w o) (w (ix2 o k)))
      * (unscale (scale2 (shapeCast ⟨2, ![8192, 4096]⟩ x h1) (flatRow a s)) * unscale (scale2 w o)) + b (ix1 o) = _
  rw [scale2_flat]
  simp only [flat_apply]

end Cert.Spec

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.Algebra.lean ====
/-
  The algebra of the quantized linear layer: with every entry of `x` and `w` a real, `kerAt = refAt`.

  * The four float words as extended reals: `127`, `-127`, `-∞`, and a positive real for the floor of a scale.
  * A code is clamped to `[-127, 127]`, so it is a real whatever its arguments (`code_real`).
  * The scale of a row of reals is a positive real: it is at least the positive floor, and a maximum of finitely many
    reals stays below `+∞` (`rowAbsMax_pos`).
  * For a positive real `r`, `127 / r` is a nonzero real, so dividing a real `q` by it is the product
    `q · (r / 127)` (`div_div_coe`), and `unscale r = r / 127` (`unscale_coe`).
  * Then every term of both contractions is a real; the coercion moves outside the finite sum, and in `ℝ` the constant
    `(rA / 127) · (rW / 127)` distributes over the sum. The bias is added to both sides unchanged.
-/
import proofs.«101874_j37950331027660_2_alg».proof.Proof.Spec
import proofs.«101874_j37950331027660_2_alg».proof.Proof.LibRealEntries

noncomputable section
namespace Cert.Spec
open Idealize.ShloMosaic Idealize.ShloMosaic.ValueIdx
open scoped BigOperators

theorem w127_eq : w127 = ((127 : ℝ) : EReal) := by
  simp [Ideal.ofBits, Ideal.ieee, -EReal.coe_mul]; norm_num

theorem wm127_eq : wm127 = ((-127 : ℝ) : EReal) := by
  simp [Ideal.ofBits, Ideal.ieee, -EReal.coe_mul]; norm_num

theorem wNegInf_eq : wNegInf = ⊥ := by
  simp [Ideal.ofBits, Ideal.ieee]

theorem wEps_pos : ∃ r : ℝ, 0 < r ∧ wEps = (r : EReal) := by
  simp [Ideal.ofBits, Ideal.ieee, -EReal.coe_mul]

/-- A code lies in `[-127, 127]`, so it is a real. -/
theorem code_real (a x : EReal) : ∃ q : ℝ, code a x = (q : EReal) := by
  have hlo : ((-127 : ℝ) : EReal) ≤ code a x := by
    rw [code, w127_eq, wm127_eq]
    exact le_min (by exact_mod_cast (by norm_num : (-127 : ℝ) ≤ 127)) (le_max_left _ _)
  have hhi : code a x ≤ ((127 : ℝ) : EReal) := by
    rw [code, w127_eq]
    exact min_le_left _ _
  have hbot : code a x ≠ ⊥ := fun h => by
    rw [h] at hlo; exact absurd hlo (not_le.mpr (EReal.bot_lt_coe _))
  have htop : code a x ≠ ⊤ := fun h => by
    rw [h] at hhi; exact absurd hhi (not_le.mpr (EReal.coe_lt_top _))
  exact ⟨(code a x).toReal, (EReal.coe_toReal htop hbot).symm⟩

/-- The scale of a row of reals is a positive real. -/
theorem rowAbsMax_pos {K : ℕ} (f : Fin K → EReal) (hf : ∀ k, ∃ r : ℝ, f k = (r : EReal)) :
    ∃ r : ℝ, 0 < r ∧ rowAbsMax f = (r : EReal) := by
  obtain ⟨e, he, hE⟩ := wEps_pos
  have hlt : rowAbsMax f < ⊤ := by
    rw [rowAbsMax, hE]
    refine max_lt ?_ (EReal.coe_lt_top e)
    rw [Finset.fold_max_lt]
    refine ⟨by rw [wNegInf_eq]; exact bot_lt_top, fun k _ => ?_⟩
    obtain ⟨r, hr⟩ := hf k
    rw [hr, ← EReal.coe_neg]
    exact max_lt (EReal.coe_lt_top _) (EReal.coe_lt_top _)
  have hge : ((e : ℝ) : EReal) ≤ rowAbsMax f := by
    rw [rowAbsMax, hE]; exact le_max_right _ _
  have hbot : rowAbsMax f ≠ ⊥ := fun h => by
    rw [h] at hge; exact absurd hge (not_le.mpr (EReal.bot_lt_coe _))
  refine ⟨(rowAbsMax f).toReal, ?_, (EReal.coe_toReal hlt.ne hbot).symm⟩
  have : ((e : ℝ) : EReal) ≤ (((rowAbsMax f).toReal : ℝ) : EReal) := by
    rw [EReal.coe_toReal hlt.ne hbot]; exact hge
  exact lt_of_lt_of_le he (by exact_mod_cast this)

/-- The coercion of a finite sum of reals is the sum of the coercions. -/
theorem coe_finset_sum {ι : Type} (s : Finset ι) (g : ι → ℝ) :
    ((∑ i ∈ s, g i : ℝ) : EReal) = ∑ i ∈ s, ((g i : ℝ) : EReal) := by
  classical
  induction s using Finset.induction_on with
  | empty => simp
  | insert i s hi ih => rw [Finset.sum_insert hi, Finset.sum_insert hi, EReal.coe_add, ih]

/-- At a real scale `r`, the factor back is the real `r / 127`. -/
theorem unscale_coe (r : ℝ) : unscale (r : EReal) = ((r * (1 / 127) : ℝ) : EReal) := by
  rw [unscale, w127_eq, Ideal.div_coe (by norm_num), ← EReal.coe_mul]

/-- Dividing a real `q` by `127 / r`, for a positive real `r`, multiplies it by `r / 127`. -/
theorem div_div_coe (q r : ℝ) (hr : 0 < r) :
    Ideal.div (q : EReal) (Ideal.div w127 (r : EReal)) = ((q * (r * (1 / 127)) : ℝ) : EReal) := by
  have h : (127 : ℝ) * (1 / r) ≠ 0 := by positivity
  rw [w127_eq, Ideal.div_coe hr.ne', ← EReal.coe_mul, Ideal.div_coe h, ← EReal.coe_mul]
  congr 1
  field_simp

/-- With every entry of `x` and `w` a real, contracting the codes and scaling the sum equals contracting the
    rescaled codes: every factor is a real, and the two factors back are constants of the sum. -/
theorem kerAt_eq_refAt {B S K N : ℕ} (x : (⟨3, ![B, S, K]⟩ : Shape).Idx → EReal) (w : (⟨2, ![N, K]⟩ : Shape).Idx → EReal)
    (b : (⟨1, ![N]⟩ : Shape).Idx → EReal) (hx : Cert.Lib.AllReal x) (hw : Cert.Lib.AllReal w) (a : Fin B) (s : Fin S) (o : Fin N) :
    kerAt x w b a s o = refAt x w b a s o := by
  obtain ⟨rA, hrA, hA⟩ := rowAbsMax_pos (fun k : Fin K => x (ix3 a s k)) (fun k => hx _)
  obtain ⟨rW, hrW, hW⟩ := rowAbsMax_pos (fun k : Fin K => w (ix2 o k)) (fun k => hw _)
  have hA' : scale3 x a s = (rA : EReal) := hA
  have hW' : scale2 w o = (rW : EReal) := hW
  choose qx hqx using fun k : Fin K => code_real (rA : EReal) (x (ix3 a s k))
  choose qw hqw using fun k : Fin K => code_real (rW : EReal) (w (ix2 o k))
  unfold kerAt refAt
  refine congrArg (· + b (ix1 o)) ?_
  simp only [hA', hW', hqx, hqw, unscale_coe, div_div_coe _ _ hrA, div_div_coe _ _ hrW, ← EReal.coe_mul,
    ← coe_finset_sum]
  congr 1
  rw [Finset.sum_mul]
  refine Finset.sum_congr rfl fun k _ => ?_
  ring

end Cert.Spec
end
-- ==== Proof.Finite.lean ====
/-
  From the precondition to arrays of reals.

  The precondition is the conjunction of three tests, one per input: the reduction by `and`, over every axis, of the
  comparison `|x| < +∞`. Read at the one index of its rank-0 result it says each of the three reductions answers one;
  a reduction by `and` answers one only when every element compared does, and an extended real whose absolute value is
  below `+∞` is a real. The array compared against is the broadcast of the constant `+∞`: each of its entries is that
  constant by definition.
-/
import proofs.«101874_j37950331027660_2_alg».proof.Pre_finite_inputs
import proofs.«101874_j37950331027660_2_alg».proof.Proof.Gen.Pre_finite_inputs
import proofs.«101874_j37950331027660_2_alg».proof.Proof.LibRealEntries
import Idealize.ShloMosaic.Lib.ReduceAll
import Idealize.ShloMosaic.Lib.ValueIdx

noncomputable section
namespace Cert.Finite
open Idealize.ShloMosaic Idealize.ShloMosaic.ValueIdx

/-- A rank-0 shape has one index. -/
instance : Subsingleton Cert.Pre_finite_inputs.S_.Idx := ⟨fun a b => funext fun d => d.elim0⟩

/-- Under the precondition all three inputs are arrays of reals. -/
theorem allReal_of_pre [Cert.Pre_finite_inputs.Facts] (x0 : FVec Ideal Cert.Pre_finite_inputs.S4x2048x4096 .f32) (x1 : FVec Ideal Cert.Pre_finite_inputs.S4096x4096 .f32)
    (x2 : FVec Ideal Cert.Pre_finite_inputs.S4096 .f32) (h : Cert.Pre_finite_inputs.fn (F := Ideal) x0 x1 x2 = fun _ => 1#1) :
    Cert.Lib.AllReal x0 ∧ Cert.Lib.AllReal x1 ∧ Cert.Lib.AllReal x2 := by
  have h0 := congrFun h ValueIdx.ix0
  dsimp only [Cert.Pre_finite_inputs.fn] at h0
  obtain ⟨h01, h2⟩ := IntOp.andi_eq_one.1 h0
  obtain ⟨hx0, hx1⟩ := IntOp.andi_eq_one.1 h01
  exact ⟨Cert.Lib.allReal_of_all_abs_lt x0 _ (fun _ => rfl) _ _ _ _ hx0,
    Cert.Lib.allReal_of_all_abs_lt x1 _ (fun _ => rfl) _ _ _ _ hx1,
    Cert.Lib.allReal_of_all_abs_lt x2 _ (fun _ => rfl) _ _ _ _ h2⟩

end Cert.Finite
end
-- ==== Proof.RefValue.lean ====
/-
  The reference program, read at one output entry.

  The reference quantizes each row of x and each row of w against the row's own scale (the largest absolute value in
  the row, floored at a small positive constant), divides every integer code by 127 / scale, contracts the quotients of
  row (a, s) of x against those of row o of w, and adds the bias entry of column o. This module reads the program's
  result at the entry (a, s, o), one intermediate array at a time, and arrives at that description, stated once over
  the extended reals in the specification module.

  Every operation but two reads one element of each operand, and the generated module of the reference says where. The
  two row maxima are reductions over the last axis: at a row's index such a reduction is the fold of max, started from
  -∞, over the row's entries, because the source indices over a row index are that index with each coordinate of the
  dropped axis put back.
-/
import proofs.«101874_j37950331027660_2_alg».proof.Proof.Gen.ReferenceIdeal.Read
import proofs.«101874_j37950331027660_2_alg».proof.Proof.Spec
import Idealize.ShloMosaic.Lib.ValueIdx
import Idealize.ShloMosaic.PureOps.Ideal.Laws
import Idealize.ShloMosaic.PureOps.Reduce

noncomputable section

namespace Cert.RefValue

open Cert.ReferenceIdeal Cert.ReferenceIdeal.Gen Cert.ReferenceIdeal.Read Idealize.ShloMosaic Idealize.ShloMosaic.ValueIdx
open scoped BigOperators

/-! ## The two row maxima

A reduction over the last axis, read at the index of a row, is the fold of max over the row's entries, started
from the initial value: the source indices over a row index are that index with each coordinate of the dropped axis put
back. -/

theorem hr3 : S4x2048x4096.Reduces [2] S4x2048 := by decide
theorem hr2 : S4096x4096.Reduces [1] S4096 := by decide

/-- Row (a, s) of the rank-3 array with coordinate k put back on the last axis is (a, s, k). -/
theorem lift_row3 (h : S4x2048x4096.Reduces [2] S4x2048) (a : Fin 4) (s : Fin 2048) (k : Fin (S4x2048x4096.size 2)) :
    h.lift (ix2 a s) k = ix3 a s (⟨k.val, k.isLt⟩ : Fin 4096) := by
  funext c; apply Fin.ext
  match c with
  | ⟨0, _⟩ => rfl
  | ⟨1, _⟩ => rfl
  | ⟨2, _⟩ => rfl

/-- Row o of the matrix with coordinate k put back on the last axis is (o, k). -/
theorem lift_row2 (h : S4096x4096.Reduces [1] S4096) (o : Fin 4096) (k : Fin (S4096x4096.size 1)) :
    h.lift (ix1 o) k = ix2 o (⟨k.val, k.isLt⟩ : Fin 4096) := by
  funext c; apply Fin.ext
  match c with
  | ⟨0, _⟩ => rfl
  | ⟨1, _⟩ => rfl

/-- The row maximum of |x| at row (a, s): the fold of max from -∞ over max x (-x) along the row. -/
theorem v1_at (x0 : (⟨S4x2048x4096, .f32⟩ : BufTy).Contents (Elt Ideal)) (a : Fin 4) (s : Fin 2048) :
    val_main_v1 (F := Ideal) x0 (ix2 a s)
      = (Finset.univ : Finset (Fin 4096)).fold max Cert.Spec.wNegInf (fun k => max (x0 (ix3 a s k)) (-(x0 (ix3 a s k)))) := by
  unfold val_main_v1
  rw [Host.reduce_eq_fold_single FloatOps.maximumf _ _ reducesTo_S4x2048x4096_S4x2048_d2 hr3 h_S_]
  have hf : (val_main_v0 (F := Ideal) x0 ∘ hr3.lift (ix2 a s)) = fun k : Fin 4096 => max (x0 (ix3 a s k)) (-(x0 (ix3 a s k))) :=
    funext fun k => by
      rw [Function.comp_apply, val_main_v0_apply, lift_row3]; rfl
  rw [hf]
  rfl

/-- The row maximum of |w| at row o. -/
theorem v14_at (x1 : (⟨S4096x4096, .f32⟩ : BufTy).Contents (Elt Ideal)) (o : Fin 4096) :
    val_main_v14 (F := Ideal) x1 (ix1 o)
      = (Finset.univ : Finset (Fin 4096)).fold max Cert.Spec.wNegInf (fun k => max (x1 (ix2 o k)) (-(x1 (ix2 o k)))) := by
  unfold val_main_v14
  rw [Host.reduce_eq_fold_single FloatOps.maximumf _ _ reducesTo_S4096x4096_S4096_d1 hr2 h_S_]
  have hf : (val_main_v13 (F := Ideal) x1 ∘ hr2.lift (ix1 o)) = fun k : Fin 4096 => max (x1 (ix2 o k)) (-(x1 (ix2 o k))) :=
    funext fun k => by
      rw [Function.comp_apply, val_main_v13_apply, lift_row2]; rfl
  rw [hf]
  rfl

/-! ## Where the layout operations read -/

theorem idx_v2_at (a : Fin 4) (s : Fin 2048) : idx_main_v2 (ix3 a s (0 : Fin 1)) = ix2 a s :=
  funext fun d => Fin.ext (by match d with | ⟨0, _⟩ => rfl | ⟨1, _⟩ => rfl)
theorem idx_v7_at (a : Fin 4) (s : Fin 2048) (k : Fin 4096) : idx_main_v7 (ix3 a s k) = ix3 a s (0 : Fin 1) :=
  funext fun d => Fin.ext (by match d with | ⟨0, _⟩ => rfl | ⟨1, _⟩ => rfl | ⟨2, _⟩ => rfl)
theorem idx_v11_at (a : Fin 4) (s : Fin 2048) (k : Fin 4096) : idx_main_v11 (ix3 a s k) = ix3 a s (0 : Fin 1) :=
  funext fun d => Fin.ext (by match d with | ⟨0, _⟩ => rfl | ⟨1, _⟩ => rfl | ⟨2, _⟩ => rfl)
theorem idx_v15_at (o : Fin 4096) : idx_main_v15 (ix2 o (0 : Fin 1)) = ix1 o :=
  funext fun d => Fin.ext (by match d with | ⟨0, _⟩ => rfl)
theorem idx_v20_at (o k : Fin 4096) : idx_main_v20 (ix2 o k) = ix2 o (0 : Fin 1) :=
  funext fun d => Fin.ext (by match d with | ⟨0, _⟩ => rfl | ⟨1, _⟩ => rfl)
theorem idx_v24_at (o k : Fin 4096) : idx_main_v24 (ix2 o k) = ix2 o (0 : Fin 1) :=
  funext fun d => Fin.ext (by match d with | ⟨0, _⟩ => rfl | ⟨1, _⟩ => rfl)
theorem lidx_v26_at (a : Fin 4) (s : Fin 2048) (o k : Fin 4096) : lidx_main_v26 (ix3 a s o) k = ix3 a s k :=
  funext fun d => Fin.ext (by match d with | ⟨0, _⟩ => rfl | ⟨1, _⟩ => rfl | ⟨2, _⟩ => rfl)
theorem ridx_v26_at (a : Fin 4) (s : Fin 2048) (o k : Fin 4096) : ridx_main_v26 (ix3 a s o) k = ix2 o k :=
  funext fun d => Fin.ext (by match d with | ⟨0, _⟩ => rfl | ⟨1, _⟩ => rfl)
theorem idx_v28_at (a : Fin 4) (s : Fin 2048) (o : Fin 4096) : idx_main_v27 (idx_main_v28 (ix3 a s o)) = ix1 o :=
  funext fun d => Fin.ext (by match d with | ⟨0, _⟩ => rfl)

/-! ## The scale of a row of x, its codes and their quotients -/

/-- The floored row maximum at (a, s, 0) is the scale of row (a, s). -/
theorem v4_at (x0 : (⟨S4x2048x4096, .f32⟩ : BufTy).Contents (Elt Ideal)) (a : Fin 4) (s : Fin 2048) :
    val_main_v4 (F := Ideal) x0 (ix3 a s (0 : Fin 1)) = Cert.Spec.scale3 x0 a s := by
  rw [val_main_v4_apply, val_main_v2_apply, val_main_v3_apply, val_main_cst_0_apply, idx_v2_at, v1_at]
  rfl

/-- 127 / scale of row (a, s). -/
theorem v6_at (x0 : (⟨S4x2048x4096, .f32⟩ : BufTy).Contents (Elt Ideal)) (a : Fin 4) (s : Fin 2048) :
    val_main_v6 (F := Ideal) x0 (ix3 a s (0 : Fin 1)) = Ideal.div Cert.Spec.w127 (Cert.Spec.scale3 x0 a s) := by
  rw [val_main_v6_apply, val_main_v5_apply, val_main_cst_1_apply, v4_at]
  rfl

/-- The code of entry (a, s, k). -/
theorem v10_at (x0 : (⟨S4x2048x4096, .f32⟩ : BufTy).Contents (Elt Ideal)) (a : Fin 4) (s : Fin 2048) (k : Fin 4096) :
    val_main_v10 (F := Ideal) x0 (ix3 a s k) = Cert.Spec.code (Cert.Spec.scale3 x0 a s) (x0 (ix3 a s k)) := by
  rw [val_main_v10_apply, val_main_call1_v4_apply, val_main_call1_v3_apply, val_main_cst_3_apply,
    val_main_call1_v2_apply, val_main_call1_v1_apply, val_main_call1_v0_apply, val_main_cst_2_apply,
    val_main_v9_apply, val_main_v8_apply, val_main_v7_apply, idx_v7_at, v6_at]
  rfl

/-- The code of entry (a, s, k) divided by 127 / scale. -/
theorem v12_at (x0 : (⟨S4x2048x4096, .f32⟩ : BufTy).Contents (Elt Ideal)) (a : Fin 4) (s : Fin 2048) (k : Fin 4096) :
    val_main_v12 (F := Ideal) x0 (ix3 a s k)
      = Ideal.div (Cert.Spec.code (Cert.Spec.scale3 x0 a s) (x0 (ix3 a s k))) (Ideal.div Cert.Spec.w127 (Cert.Spec.scale3 x0 a s)) := by
  rw [val_main_v12_apply, val_main_v11_apply, idx_v11_at, v6_at, v10_at]
  rfl

/-! ## The same for a row of w -/

/-- The floored row maximum at (o, 0) is the scale of row o. -/
theorem v17_at (x1 : (⟨S4096x4096, .f32⟩ : BufTy).Contents (Elt Ideal)) (o : Fin 4096) :
    val_main_v17 (F := Ideal) x1 (ix2 o (0 : Fin 1)) = Cert.Spec.scale2 x1 o := by
  rw [val_main_v17_apply, val_main_v15_apply, val_main_v16_apply, val_main_cst_5_apply, idx_v15_at, v14_at]
  rfl

/-- 127 / scale of row o. -/
theorem v19_at (x1 : (⟨S4096x4096, .f32⟩ : BufTy).Contents (Elt Ideal)) (o : Fin 4096) :
    val_main_v19 (F := Ideal) x1 (ix2 o (0 : Fin 1)) = Ideal.div Cert.Spec.w127 (Cert.Spec.scale2 x1 o) := by
  rw [val_main_v19_apply, val_main_v18_apply, val_main_cst_6_apply, v17_at]
  rfl

/-- The code of entry (o, k). -/
theorem v23_at (x1 : (⟨S4096x4096, .f32⟩ : BufTy).Contents (Elt Ideal)) (o k : Fin 4096) :
    val_main_v23 (F := Ideal) x1 (ix2 o k) = Cert.Spec.code (Cert.Spec.scale2 x1 o) (x1 (ix2 o k)) := by
  rw [val_main_v23_apply, val_main_call3_v4_apply, val_main_call3_v3_apply, val_main_cst_8_apply,
    val_main_call3_v2_apply, val_main_call3_v1_apply, val_main_call3_v0_apply, val_main_cst_7_apply,
    val_main_v22_apply, val_main_v21_apply, val_main_v20_apply, idx_v20_at, v19_at]
  rfl

/-- The code of entry (o, k) divided by 127 / scale. -/
theorem v25_at (x1 : (⟨S4096x4096, .f32⟩ : BufTy).Contents (Elt Ideal)) (o k : Fin 4096) :
    val_main_v25 (F := Ideal) x1 (ix2 o k)
      = Ideal.div (Cert.Spec.code (Cert.Spec.scale2 x1 o) (x1 (ix2 o k))) (Ideal.div Cert.Spec.w127 (Cert.Spec.scale2 x1 o)) := by
  rw [val_main_v25_apply, val_main_v24_apply, idx_v24_at, v19_at, v23_at]
  rfl

/-! ## The contraction, the bias and their sum -/

/-- Entry (a, s, o) of the contraction: the quotients of row (a, s) of x against those of row o of w. -/
theorem v26_at (x0 : (⟨S4x2048x4096, .f32⟩ : BufTy).Contents (Elt Ideal)) (x1 : (⟨S4096x4096, .f32⟩ : BufTy).Contents (Elt Ideal))
    (a : Fin 4) (s : Fin 2048) (o : Fin 4096) :
    val_main_v26 (F := Ideal) x0 x1 (ix3 a s o)
      = ∑ k : Fin 4096,
          Ideal.div (Cert.Spec.code (Cert.Spec.scale3 x0 a s) (x0 (ix3 a s k))) (Ideal.div Cert.Spec.w127 (Cert.Spec.scale3 x0 a s))
            * Ideal.div (Cert.Spec.code (Cert.Spec.scale2 x1 o) (x1 (ix2 o k))) (Ideal.div Cert.Spec.w127 (Cert.Spec.scale2 x1 o)) := by
  rw [val_main_v26_apply]
  refine Finset.sum_congr rfl fun k _ => ?_
  rw [lidx_v26_at, ridx_v26_at, v12_at, v25_at]

/-- The broadcast bias at (a, s, o) is the bias entry of column o. -/
theorem v28_at (x2 : (⟨S4096, .f32⟩ : BufTy).Contents (Elt Ideal)) (a : Fin 4) (s : Fin 2048) (o : Fin 4096) :
    val_main_v28 (F := Ideal) x2 (ix3 a s o) = x2 (ix1 o) := by
  rw [val_main_v28_apply, val_main_v27_apply, idx_v28_at]

/-- The reference's result at (a, s, o): every code divided by its row's 127 / scale, the quotients contracted,
    the bias entry added. -/
theorem ref_apply (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (a : Fin 4) (s : Fin 2048) (o : Fin 4096) :
    val_main_v29 (F := Ideal) x0 x1 x2 (ix3 a s o) = Cert.Spec.refAt x0 x1 x2 a s o := by
  rw [val_main_v29_apply, v26_at, v28_at]
  rfl

end Cert.RefValue

end
-- ==== Proof.lean ====
/-
  The certificate of the fake-quantized linear layer: `x : [4, 2048, 4096]`, `w : [4096, 4096]`, `bias : [4096]`.

  Both programs quantize every row of `x` (over its last axis) and every row of `w` against the row's own scale
  `a = max (max |row|) ε`: an entry becomes the code `clamp (round (entry · 127 / a))` in `[-127, 127]`. The kernel contracts
  codes with codes, row of `x` against row of `w`, and multiplies the sum by `(a_x / 127) · (a_w / 127)` before adding the
  bias; the reference divides every code by `127 / a` first and contracts the quotients. On the extended reals a change
  of float format is the identity and a sum has no order, so the two results differ exactly by moving the two per-row
  factors across the sum — a law of real numbers, which holds here because under the precondition every input is a real:
  a row's scale is then a positive real (it is at least `ε > 0`), every code is a real (it lies in `[-127, 127]`), and a
  quotient by `127 / a` is the product with `a / 127`. The bias is added unchanged on both sides.

  The three frames are the programs' generated runs; the kernel's idealization rewrote nothing, so `preserves` is `True`.
  For the algebraic claim the kernel's result is read off its run region by region (each region's output array is one
  function of its input arrays, index by index; the three reshapes around them re-index rows), the reference's off its
  run one operation at a time, and both are the one function `kerAt` of the argument arrays.
-/
import proofs.«101874_j37950331027660_2_alg».proof.Defs
import proofs.«101874_j37950331027660_2_alg».proof.Proof.Gen.Kernel
import proofs.«101874_j37950331027660_2_alg».proof.Proof.Gen.Kernel.Frame
import proofs.«101874_j37950331027660_2_alg».proof.Proof.Gen.KernelIdeal
import proofs.«101874_j37950331027660_2_alg».proof.Proof.Gen.KernelIdeal.Frame
import proofs.«101874_j37950331027660_2_alg».proof.Proof.Gen.ReferenceIdeal
import proofs.«101874_j37950331027660_2_alg».proof.Proof.Gen.Pre_finite_inputs
import proofs.«101874_j37950331027660_2_alg».proof.Proof.Gen.ReferenceIdeal.Run
import proofs.«101874_j37950331027660_2_alg».proof.Proof.Gen.ReferenceIdeal.Read
import proofs.«101874_j37950331027660_2_alg».proof.Proof.RunKit
import proofs.«101874_j37950331027660_2_alg».proof.Proof.RunValue
import proofs.«101874_j37950331027660_2_alg».proof.Proof.KerBridge
import proofs.«101874_j37950331027660_2_alg».proof.Proof.Algebra
import proofs.«101874_j37950331027660_2_alg».proof.Proof.Finite
import proofs.«101874_j37950331027660_2_alg».proof.Proof.RefValue
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at `kerAt` of the arguments: the kernel's by its three passes composed, the
    reference's by its operations read at an index and the law that moves the per-row factors across the sum. -/
theorem algebraic : Cert.algebraic_KernelIdeal_ReferenceIdeal := by
  intro m ρ m' ρ' hpre hagree
  refine ⟨fun c => fun i : Cert.KernelIdeal.S4x2048x4096.Idx =>
      Cert.Spec.kerAt (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (i 0) (i 1) (i 2), ?_, ?_⟩
  · refine (θ_run Cert.KernelIdeal.defs _ _).mono (fun r h c => ⟨(h c).1.trans ?_, (h c).2⟩)
      (Cert.KerValue.run_result (F := Ideal) m ρ)
    rw [Cert.KerValue.result_eq]
    funext i
    obtain ⟨a, s, o, rfl⟩ : ∃ (a : Fin 4) (s : Fin 2048) (o : Fin 4096), i = ix3 a s o := ⟨i 0, i 1, i 2, eq_ix3 i⟩
    exact Cert.Spec.passes_apply _ _ _ _ _ _ a s o
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, (hagree c).1, (hagree c).2.1, (hagree c).2.2]
    funext i
    obtain ⟨a, s, o, rfl⟩ : ∃ (a : Fin 4) (s : Fin 2048) (o : Fin 4096), i = ix3 a s o := ⟨i 0, i 1, i 2, eq_ix3 i⟩
    rw [Cert.RefValue.ref_apply]
    obtain ⟨hx, hw, -⟩ := Cert.Finite.allReal_of_pre _ _ _ (hpre c)
    exact (Cert.Spec.kerAt_eq_refAt _ _ _ hx hw a s o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
